-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8192x2048 .f32) (main_arg1 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S8192x2048 : Shape := ⟨2, ![8192, 2048]⟩
abbrev S2048x2048 : Shape := ⟨2, ![2048, 2048]⟩
abbrev S1024x512 : Shape := ⟨2, ![1024, 512]⟩
abbrev S512x2048 : Shape := ⟨2, ![512, 2048]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x2048.size a
  hwx0_0 : ∀ i : grid0.Coords, EltTy.bits .bf16 = 32 ∨ (Rect.block (s := S8192x2048) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .bf16 = 32 ∨ (Rect.block (s := S2048x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x2048.size a
  hwx0_2 : ∀ i : grid0.Coords, EltTy.bits .f32 = 32 ∨ (Rect.block (s := S8192x2048) S1024x2048.size (cc0_transform_2 i) (hinb0_2 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.MatSum.lean ====
/-
  The matrix product both programs compute, as one function of the two argument arrays, and the one summation law
  that joins them.

  For `x : [8192, 2048]` and `w : [2048, 2048]` over the extended reals, entry `(r, c)` of the product is
  `∑ k < 2048, x[r, k] · w[k, c]`.  The reference takes that sum in one go.  The kernel cuts the contraction axis into
  four stretches of 512 and accumulates: starting from zero it adds the partial sum over one stretch at a time.  So after
  `j + 1` stretches it holds the PREFIX SUM over the first `512·(j + 1)` products, and the two agree because a prefix sum
  extended by the next stretch is the longer prefix sum — addition in a commutative monoid, nothing about finiteness.

  To speak of "the q-th product of row r and column c" for every natural `q` (so that prefix sums are plain sums over
  `Finset.range`) the coordinates are reduced modulo the extents; inside the extents the reduction does nothing.
-/
import Idealize.ShloMosaic.PureOps.Ideal
import Idealize.ShloMosaic.Lib.ValueIdx

noncomputable section

namespace Cert.MatSum

open Idealize.ShloMosaic Idealize.ShloMosaic.ValueIdx

/-! ## Prefix sums of a sequence -/

/-- The sum of the first `n` terms of a sequence. -/
def pre {M : Type} [AddCommMonoid M] (f : ℕ → M) (n : ℕ) : M := ∑ q ∈ Finset.range n, f q

/-- Zero plus the first stretch is the prefix sum over that stretch. -/
theorem pre_first {M : Type} [AddCommMonoid M] (f : ℕ → M) (b : ℕ) : 0 + ∑ q : Fin b, f q.val = pre f b := by
  rw [zero_add, Fin.sum_univ_eq_sum_range]; rfl

/-- A prefix sum plus the next stretch is the longer prefix sum. -/
theorem pre_next {M : Type} [AddCommMonoid M] (f : ℕ → M) (n b : ℕ) : pre f n + ∑ q : Fin b, f (n + q.val) = pre f (n + b) := by
  unfold pre
  rw [Finset.sum_range_add, Fin.sum_univ_eq_sum_range (fun q => f (n + q))]

/-- The prefix sum over a whole finite axis is the sum over that axis. -/
theorem pre_all {M : Type} [AddCommMonoid M] (f : ℕ → M) (n : ℕ) : pre f n = ∑ k : Fin n, f k.val :=
  (Fin.sum_univ_eq_sum_range f n).symm

/-! ## The product -/

/-- The shapes of `x` and of `w`. -/
abbrev XS : Shape := ⟨2, ![8192, 2048]⟩
abbrev WS : Shape := ⟨2, ![2048, 2048]⟩

/-- Position `(r, q)` of `x`, for any naturals: each coordinate reduced modulo its extent. -/
def xAt (r q : ℕ) : XS.Idx := ix2 ⟨r % 8192, Nat.mod_lt _ (by norm_num)⟩ ⟨q % 2048, Nat.mod_lt _ (by norm_num)⟩
/-- Position `(q, c)` of `w`, likewise. -/
def wAt (q c : ℕ) : WS.Idx := ix2 ⟨q % 2048, Nat.mod_lt _ (by norm_num)⟩ ⟨c % 2048, Nat.mod_lt _ (by norm_num)⟩

theorem xAt_of_lt {r q : ℕ} (hr : r < 8192) (hq : q < 2048) : xAt r q = ix2 ⟨r, hr⟩ ⟨q, hq⟩ := by
  unfold xAt
  congr 1 <;> exact Fin.ext (Nat.mod_eq_of_lt (by assumption))
theorem wAt_of_lt {q c : ℕ} (hq : q < 2048) (hc : c < 2048) : wAt q c = ix2 ⟨q, hq⟩ ⟨c, hc⟩ := by
  unfold wAt
  congr 1 <;> exact Fin.ext (Nat.mod_eq_of_lt (by assumption))

/-- The `q`-th product of row `r` of `x` with column `c` of `w`. -/
def term (x : XS.Idx → EReal) (w : WS.Idx → EReal) (r c q : ℕ) : EReal := x (xAt r q) * w (wAt q c)

/-- THE PRODUCT: entry `i = (r, c)` is the sum over the contraction axis of `x[r, k] · w[k, c]`. -/
def prod (x : XS.Idx → EReal) (w : WS.Idx → EReal) : XS.Idx → EReal :=
  fun i => ∑ k : Fin 2048, x (ix2 (i 0) k) * w (ix2 k (i 1))

/-- An entry of the product is the full prefix sum of its row-by-column products. -/
theorem prod_eq_pre (x : XS.Idx → EReal) (w : WS.Idx → EReal) (i : XS.Idx) :
    prod x w i = pre (term x w (i 0).val (i 1).val) 2048 := by
  rw [pre_all]
  refine Finset.sum_congr rfl fun k _ => ?_
  unfold term
  rw [xAt_of_lt (i 0).isLt k.isLt, wAt_of_lt k.isLt (i 1).isLt]
  rfl

end Cert.MatSum

end
-- ==== Proof.RefProduct.lean ====
/-
  The reference is the product.  Its one host operation is a `dot_general` contracting axis 1 of `x` with axis 0 of
  `w`; over the extended reals its entry at `i = (r, c)` is the sum over `k` of `x[r, k] · w[k, c]` (the generated
  module that reads the operation at an index states exactly this, with the two operand positions as functions of `i`
  and `k`).  Those positions are `(i₀, k)` and `(k, i₁)`, so the entry is `MatSum.prod x w i`.
-/
import proofs.«138374_j46995532152908_1_alg».proof.Proof.Gen.ReferenceIdeal.Read
import proofs.«138374_j46995532152908_1_alg».proof.Proof.MatSum

noncomputable section

namespace Cert.ReferenceIdeal.RefValue

open Cert.ReferenceIdeal Cert.ReferenceIdeal.Gen Cert.ReferenceIdeal.Read
open Idealize.ShloMosaic Idealize.ShloMosaic.ValueIdx

/-- The left operand is read at row `i₀`, column `k`. -/
theorem lidx_eq (i : S8192x2048.Idx) (k : Fin 2048) : lidx_main_v0 i k = ix2 (i 0) k :=
  funext fun a => match a with | ⟨0, _⟩ => rfl | ⟨1, _⟩ => rfl

/-- The right operand is read at row `k`, column `i₁`. -/
theorem ridx_eq (i : S8192x2048.Idx) (k : Fin 2048) : ridx_main_v0 i k = ix2 k (i 1) :=
  funext fun a => match a with | ⟨0, _⟩ => rfl | ⟨1, _⟩ => rfl

/-- The reference's result, as a function of its two arguments, is the product. -/
theorem dot_eq_prod (x : FVec Ideal S8192x2048 .f32) (w : FVec Ideal S2048x2048 .f32) :
    Host.dotGeneral dot_S8192x2048_S2048x2048_S8192x2048_1_0_0_1_n_n none x w = Cert.MatSum.prod x w := by
  rw [val_main_v0_eq]
  funext i
  rw [val_main_v0_apply]
  unfold Cert.MatSum.prod
  refine Finset.sum_congr rfl fun k _ => ?_
  rw [lidx_eq, ridx_eq]
  rfl

end Cert.ReferenceIdeal.RefValue

end
-- ==== Proof.Pieces.lean ====
/-
  What one run of the kernel body leaves behind, case by case, as the two stored values of the body.

  The body is run in three cases.  At the first step along the contraction axis it overwrites the accumulator with the
  zero block, loads it back, and stores `zero + A · B`.  At a middle step it loads the accumulator `acc` left by the step
  before and stores `acc + A · B`.  At the last step it does the same and then copies the accumulator, loaded once more,
  into the output block.  Every load and store is of a whole buffer at offset zero, so a load returns what the buffer
  holds and the last store decides what it holds afterwards; a load that follows a store into the same buffer returns
  the stored value.  Nothing here depends on what the numbers are.
-/
import proofs.«138374_j46995532152908_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- Every access of the body is at offset zero. -/
theorem hz : (![0, 0] : Fin 2 → Nat) = fun _ => 0 := funext fun a => by fin_cases a <;> rfl

/-- FIRST STEP: the accumulator ends at `zero + A · B` (the accumulating store over the zero block read back). -/
theorem first_acc (c : Dev nD) (i : grid0.Coords) (a2 : Memref sig .tc .vmem S1024x512 .bf16) (h2 : a2.IsWhole)
    (a3 : Memref sig .tc .vmem S512x2048 .bf16) (h3 : a3.IsWhole) (a4 : Memref sig .tc .vmem S1024x2048 .f32) (h4 : a4.IsWhole)
    (a5 : Memref sig .tc .vmem S1024x2048 .f32) (h5 : a5.IsWhole) (hc0 : cond0_0 i) (hc1 : ¬cond0_1 i)
    (A : Vec F S1024x512 .bf16) (B : Vec F S512x2048 .bf16) :
    sout0_A_0 c i a2 h2 a3 h3 a4 h4 a5 h5 hc0 hc1 A B = k0_pay2 k0_pay1 A B := by
  unfold sout0_A_0
  rw [View.read_writes_eq_canon _ _ _ (scover0_A_0 c i a2 h2 a3 h3 a4 h4 a5 h5 hc0 hc1 A B)]
  unfold kernelRun0_A
  dsimp only
  sl_unfold_words
  rw [View.canon_cons_unit_zero (S := S1024x2048) hz, View.readCov_unit_zero (S := S1024x2048) _ hz]
  simp only [View.readAt_eq_ld, h2.read_unread, h3.read_unread, View.ld_unit_zero (S := S1024x512) hz,
    View.ld_unit_zero (S := S512x2048) hz]

/-- MIDDLE STEP: over the accumulator `acc` of the step before, the accumulator ends at `acc + A · B`. -/
theorem middle_acc (c : Dev nD) (i : grid0.Coords) (a2 : Memref sig .tc .vmem S1024x512 .bf16) (h2 : a2.IsWhole)
    (a3 : Memref sig .tc .vmem S512x2048 .bf16) (h3 : a3.IsWhole) (a4 : Memref sig .tc .vmem S1024x2048 .f32) (h4 : a4.IsWhole)
    (a5 : Memref sig .tc .vmem S1024x2048 .f32) (h5 : a5.IsWhole) (hc0 : ¬cond0_0 i) (hc1 : ¬cond0_1 i)
    (A : Vec F S1024x512 .bf16) (B : Vec F S512x2048 .bf16) (acc : Vec F S1024x2048 .f32) :
    sout0_B_0 c i a2 h2 a3 h3 a4 h4 a5 h5 hc0 hc1 A B acc = k0_pay2 acc A B := by
  unfold sout0_B_0
  rw [View.read_writes_eq_canon _ _ _ (scover0_B_0 c i a2 h2 a3 h3 a4 h4 a5 h5 hc0 hc1 A B acc)]
  unfold kernelRun0_B
  dsimp only
  rw [View.canon_unit_zero (S := S1024x2048) hz]
  simp only [View.readAt_eq_ld, h2.read_unread, h3.read_unread, h5.read_unread, View.ld_unit_zero (S := S1024x512) hz,
    View.ld_unit_zero (S := S512x2048) hz, View.ld_unit_zero (S := S1024x2048) hz]

/-- LAST STEP, the accumulator: `acc + A · B` again. -/
theorem last_acc (c : Dev nD) (i : grid0.Coords) (a2 : Memref sig .tc .vmem S1024x512 .bf16) (h2 : a2.IsWhole)
    (a3 : Memref sig .tc .vmem S512x2048 .bf16) (h3 : a3.IsWhole) (a4 : Memref sig .tc .vmem S1024x2048 .f32) (h4 : a4.IsWhole)
    (a5 : Memref sig .tc .vmem S1024x2048 .f32) (h5 : a5.IsWhole) (hc0 : ¬cond0_0 i) (hc1 : cond0_1 i)
    (A : Vec F S1024x512 .bf16) (B : Vec F S512x2048 .bf16) (acc : Vec F S1024x2048 .f32) :
    sout0_C_0 c i a2 h2 a3 h3 a4 h4 a5 h5 hc0 hc1 A B acc = k0_pay2 acc A B := by
  unfold sout0_C_0
  rw [View.read_writes_eq_canon _ _ _ (scover0_C_0 c i a2 h2 a3 h3 a4 h4 a5 h5 hc0 hc1 A B acc)]
  unfold kernelRun0_C
  dsimp only
  sl_unfold_words
  rw [View.canon_unit_zero (S := S1024x2048) hz]
  simp only [View.readAt_eq_ld, h2.read_unread, h3.read_unread, h5.read_unread, View.ld_unit_zero (S := S1024x512) hz,
    View.ld_unit_zero (S := S512x2048) hz, View.ld_unit_zero (S := S1024x2048) hz]

/-- LAST STEP, the output block: the accumulator just stored, loaded back — the same `acc + A · B`. -/
theorem last_out (c : Dev nD) (i : grid0.Coords) (a2 : Memref sig .tc .vmem S1024x512 .bf16) (h2 : a2.IsWhole)
    (a3 : Memref sig .tc .vmem S512x2048 .bf16) (h3 : a3.IsWhole) (a4 : Memref sig .tc .vmem S1024x2048 .f32) (h4 : a4.IsWhole)
    (a5 : Memref sig .tc .vmem S1024x2048 .f32) (h5 : a5.IsWhole) (hc0 : ¬cond0_0 i) (hc1 : cond0_1 i)
    (A : Vec F S1024x512 .bf16) (B : Vec F S512x2048 .bf16) (acc : Vec F S1024x2048 .f32) :
    out0_C_2 c i a2 h2 a3 h3 a4 h4 a5 h5 hc0 hc1 A B acc = k0_pay2 acc A B := by
  unfold out0_C_2
  rw [View.read_writes_eq_canon _ _ _ (cover0_C_2 c i a2 h2 a3 h3 a4 h4 a5 h5 hc0 hc1 A B acc)]
  unfold kernelRun0_C
  dsimp only
  sl_unfold_words
  rw [View.canon_unit_zero (S := S1024x2048) hz, View.readCov_unit_zero (S := S1024x2048) _ hz]
  simp only [View.readAt_eq_ld, h2.read_unread, h3.read_unread, h5.read_unread, View.ld_unit_zero (S := S1024x512) hz,
    View.ld_unit_zero (S := S512x2048) hz, View.ld_unit_zero (S := S1024x2048) hz]

end Cert.KernelIdeal.Pieces

end
-- ==== Proof.Payload.lean ====
/-
  What the kernel body stores, read at an index over the extended reals.

  The body has two stored values.  Under the first condition (the first step along the contraction axis) it stores the
  zero block into its accumulator.  Then, at every step, it stores `acc + A · B` where `acc` is the accumulator as
  loaded, `A` is the point's `[1024, 512]` block of `x` and `B` the point's `[512, 2048]` block of `w`; the matrix
  product is taken into a zero accumulator, so at `(r, c)` it is the plain sum over `q < 512` of `A[r, q] · B[q, c]`
  (a change of float format on the way into the product is the identity here).
-/
import proofs.«138374_j46995532152908_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx

/-- The block product's contraction record: `[1024, 512] × [512, 2048] → [1024, 2048]`, axis 1 against axis 0. -/
abbrev DD : DotDims S1024x512 S512x2048 S1024x2048 := dot_S1024x512_S512x2048_S1024x2048_1_0_0_1_n_n

/-- The stored zero block is zero everywhere. -/
theorem zero_apply (j : S1024x2048.Idx) : k0_pay1 (F := Ideal) j = 0 := by
  unfold k0_pay1
  rw [shapeCast_self]
  exact Ideal.ofBits_zero_f32

/-- Coordinates of the two operand positions of the block product at output position `j` and contraction position
    `k`: the left operand's row is `j`'s row and its column is `k`; the right operand's row is `k` and its column `j`'s. -/
theorem lhs_row (j : S1024x2048.Idx) (k : DD.contr.Idx) : (DD.lhsIdx j k 0).val = (j 0).val := by
  unfold DotDims.lhsIdx
  rw [dif_neg (show ¬(0 : Fin S1024x512.rank) ∈ DD.lhsBatch by decide),
    dif_pos (show (0 : Fin S1024x512.rank) ∈ DD.lhsNonContracting by decide)]
  rfl
theorem lhs_col (j : S1024x2048.Idx) (k : DD.contr.Idx) : (DD.lhsIdx j k 1).val = (k ⟨0, by decide⟩).val :=
  DD.lhsIdx_val_of_single rfl j k
theorem rhs_row (j : S1024x2048.Idx) (k : DD.contr.Idx) : (DD.rhsIdx j k 0).val = (k ⟨0, by decide⟩).val :=
  DD.rhsIdx_val_of_single rfl j k
theorem rhs_col (j : S1024x2048.Idx) (k : DD.contr.Idx) : (DD.rhsIdx j k 1).val = (j 1).val := by
  unfold DotDims.rhsIdx
  rw [dif_neg (show ¬(1 : Fin S512x2048.rank) ∈ DD.rhsBatch by decide),
    dif_pos (show (1 : Fin S512x2048.rank) ∈ DD.rhsNonContracting by decide)]
  rfl

/-- The left operand of the block product at output `(r, c)` and contraction position `q` is read at `(r, q)`. -/
theorem lhs_at (r : Fin 1024) (c : Fin 2048) (q : Fin 512) :
    DD.lhsIdx (ix2 r c) ((contrEquiv1 DD 512 rfl rfl).symm q) = ix2 r q := by
  have hq := contrEquiv1_symm_val DD 512 rfl rfl q
  exact funext fun a => Fin.ext (by
    match a with
    | ⟨0, _⟩ => exact lhs_row _ _
    | ⟨1, _⟩ => exact (lhs_col _ _).trans hq)

/-- The right operand is read at `(q, c)`. -/
theorem rhs_at (r : Fin 1024) (c : Fin 2048) (q : Fin 512) :
    DD.rhsIdx (ix2 r c) ((contrEquiv1 DD 512 rfl rfl).symm q) = ix2 q c := by
  have hq := contrEquiv1_symm_val DD 512 rfl rfl q
  exact funext fun a => Fin.ext (by
    match a with
    | ⟨0, _⟩ => exact (rhs_row _ _).trans hq
    | ⟨1, _⟩ => exact rhs_col _ _)

/-- One stretch: the sum over the 512 contraction positions of the products of row `r` of `A` with column `c` of `B`. -/
def blockSum (A : FVec Ideal S1024x512 .bf16) (B : FVec Ideal S512x2048 .bf16) (r : Fin 1024) (c : Fin 2048) : EReal :=
  ∑ q : Fin 512, A (ix2 r q) * B (ix2 q c)

/-- The block product into a zero accumulator, at `(r, c)`: the sum over the 512 contraction positions. -/
theorem matmul_at (A : FVec Ideal S1024x512 .bf16) (B : FVec Ideal S512x2048 .bf16) (r : Fin 1024) (c : Fin 2048) :
    FloatOps.matmul DD none A B (constant S1024x2048 .f32 0x00000000#32) (ix2 r c) = blockSum A B r c := by
  unfold blockSum
  refine (Ideal.matmul_constant_zero_apply DD none A B (ix2 r c)).trans ?_
  rw [← Equiv.sum_comp (contrEquiv1 DD 512 rfl rfl).symm]
  refine Finset.sum_congr rfl fun q _ => ?_
  rw [lhs_at, rhs_at]

/-- The accumulating store's value at `(r, c)`: the accumulator as loaded plus the block product's sum. -/
theorem acc_apply (acc : FVec Ideal S1024x2048 .f32) (A : FVec Ideal S1024x512 .bf16) (B : FVec Ideal S512x2048 .bf16)
    (r : Fin 1024) (c : Fin 2048) :
    k0_pay2 (F := Ideal) acc A B (ix2 r c) = acc (ix2 r c) + blockSum A B r c := by
  unfold k0_pay2
  rw [shapeCast_self, shapeCast_self, shapeCast_self]
  exact congrArg (acc (ix2 r c) + ·) (matmul_at A B r c)

end Cert.KernelIdeal.Payload

end
-- ==== Proof.Blocks.lean ====
/-
  Where the kernel's blocks sit in the argument arrays.

  The grid has 32 points, numbered `t = 4·i + k` with `i < 8` the row block and `k < 4` the step along the contraction
  axis.  Before the region the host converts `x` and `w` to a narrower float format; over the extended reals that is the
  identity, so the arrays the region reads ARE the arguments.  At point `t` the first window holds rows
  `1024·i … 1024·i + 1023`, columns `512·k … 512·k + 511` of `x`; the second holds rows `512·k … 512·k + 511` and all
  columns of `w`; the output window is rows `1024·i …` and all columns of the result.
-/
import proofs.«138374_j46995532152908_1_alg».proof.Proof.Gen.KernelIdeal.Frame
import proofs.«138374_j46995532152908_1_alg».proof.Proof.MatSum
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.StableHlo
open Cert.MatSum (xAt wAt)

variable (m : (ℓ : Loc nD τ sig) → Buf (Elt Ideal) ℓ)

/-- The region finds `x` itself in its first window's array: the host's change of format is the identity. -/
theorem entry_x (c : Dev nD) :
    (V m c main_v0 : S8192x2048.Idx → EReal) = m ((c : Thread nD τ).loc main_arg0) := by
  dsimp only [V, hostOps0]; after_results; rfl

/-- Likewise `w` in its second window's array. -/
theorem entry_w (c : Dev nD) :
    (V m c main_v1 : S2048x2048.Idx → EReal) = m ((c : Thread nD τ).loc main_arg1) := by
  dsimp only [V, hostOps0]; after_results; rfl

/-- The block index of each window at point `t`, decided over the grid: the row block is `t / 4`, the step `t % 4`. -/
theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- Entry `(r, q)` of the first window's block at point `t` is `x[1024·(t/4) + r, 512·(t%4) + q]`. -/
theorem xblock_apply (c : Dev nD) (t : Fin cfg0.N) (r : Fin 1024) (q : Fin 512) :
    (iblk m c 0 t : Vec Ideal S1024x512 .bf16) (ix2 r q)
      = m ((c : Thread nD τ).loc main_arg0) (xAt (1024 * (t.val / 4) + r.val) (512 * (t.val % 4) + q.val)) := by
  obtain ⟨e0, e1, -, -, -, -⟩ := idx_facts t
  have hN : t.val < 32 := lt_of_lt_of_eq t.isLt N_0
  unfold iblk
  rw [View.read_apply]
  show V m c main_v0 (((cfg0.win 0).blk t).view.emb (ix2 r q)) = _
  refine (congrFun (entry_x m c) _).trans (congrArg _ ?_)
  funext a
  apply Fin.ext
  match a with
  | ⟨0, _⟩ =>
    show win0_0.index t (0 : Fin 2) * 1024 + 1 * r.val = (1024 * (t.val / 4) + r.val) % 8192
    rw [e0]; omega
  | ⟨1, _⟩ =>
    show win0_0.index t (1 : Fin 2) * 512 + 1 * q.val = (512 * (t.val % 4) + q.val) % 2048
    rw [e1]; omega

/-- Entry `(q, c)` of the second window's block at point `t` is `w[512·(t%4) + q, c]`. -/
theorem wblock_apply (c : Dev nD) (t : Fin cfg0.N) (q : Fin 512) (cc : Fin 2048) :
    (iblk m c 1 t : Vec Ideal S512x2048 .bf16) (ix2 q cc)
      = m ((c : Thread nD τ).loc main_arg1) (wAt (512 * (t.val % 4) + q.val) cc.val) := by
  obtain ⟨-, -, e2, e3, -, -⟩ := idx_facts t
  have hN : t.val < 32 := lt_of_lt_of_eq t.isLt N_0
  unfold iblk
  rw [View.read_apply]
  show V m c main_v1 (((cfg0.win 1).blk t).view.emb (ix2 q cc)) = _
  refine (congrFun (entry_w m c) _).trans (congrArg _ ?_)
  funext a
  apply Fin.ext
  match a with
  | ⟨0, _⟩ =>
    show win0_1.index t (0 : Fin 2) * 512 + 1 * q.val = (512 * (t.val % 4) + q.val) % 2048
    rw [e2]; omega
  | ⟨1, _⟩ =>
    show win0_1.index t (1 : Fin 2) * 2048 + 1 * cc.val = cc.val % 2048
    rw [e3]; omega

end Cert.KernelIdeal.Blocks

end
-- ==== Proof.Accum.lean ====
/-
  The accumulator after every grid point, over the extended reals.

  Write `t = 4·i + k`.  After point `t` the accumulator holds, at `(r, c)`, the sum of the first `512·(k + 1)` products
  `x[1024·i + r, q] · w[q, c]` — the prefix sum of row `1024·i + r` of `x` against column `c` of `w`.  At `k = 0` the body
  starts from the zero block, so it leaves zero plus the first stretch; at `k > 0` it adds the next stretch of 512
  products to what the point before left (same `i`, one stretch shorter).  Both are the prefix-sum law.  The proof goes
  by induction along the points and never lists them.
-/
import proofs.«138374_j46995532152908_1_alg».proof.Proof.Pieces
import proofs.«138374_j46995532152908_1_alg».proof.Proof.Payload
import proofs.«138374_j46995532152908_1_alg».proof.Proof.Blocks
import proofs.«138374_j46995532152908_1_alg».proof.Proof.MatSum

noncomputable section

namespace Cert.KernelIdeal.Accum

open Cert.KernelIdeal Cert.KernelIdeal.Gen
open Idealize.ShloMosaic Idealize.ShloMosaic.TcCoe Idealize.SL.Sem Idealize.ShloMosaic.ValueIdx
open Cert.MatSum (pre term)

variable (m : (ℓ : Loc nD τ sig) → Buf (Elt Ideal) ℓ)

/-- The products of row `1024·(n/4) + r` of `x` with column `c` of `w`, as a sequence in the contraction position. -/
abbrev products (c : Dev nD) (n : ℕ) (r cc : ℕ) : ℕ → EReal :=
  term (m ((c : Thread nD τ).loc main_arg0)) (m ((c : Thread nD τ).loc main_arg1)) (1024 * (n / 4) + r) cc

/-- THE RUNNING VALUE after point `n`: at `(r, c)` the prefix sum over the first `512·(n % 4 + 1)` products. -/
def running (c : Dev nD) (n : ℕ) : Vec Ideal S1024x2048 .f32 :=
  fun y => pre (products m c n (y 0).val (y 1).val) (512 * (n % 4 + 1))

/-- One stretch of the block product at point `t`, at `(r, c)`: the 512 products from position `512·(t % 4)` on. -/
theorem stretch (c : Dev nD) (t : Fin cfg0.N) (r : Fin 1024) (cc : Fin 2048) :
    Payload.blockSum (iblk m c 0 t) (iblk m c 1 t) r cc
      = ∑ q : Fin 512, products m c t.val r.val cc.val (512 * (t.val % 4) + q.val) := by
  unfold Payload.blockSum
  exact Finset.sum_congr rfl fun q _ =>
    congrArg₂ (· * ·) (Blocks.xblock_apply m c t r q) (Blocks.wblock_apply m c t q cc)

/-- A FIRST STEP (`t % 4 = 0`) leaves zero plus the first stretch: the running value. -/
theorem first_step (c : Dev nD) (t : Fin cfg0.N) (h0 : t.val % 4 = 0) :
    k0_pay2 (F := Ideal) (k0_pay1 (F := Ideal)) (iblk m c 0 t) (iblk m c 1 t) = running m c t.val := by
  funext y
  obtain ⟨r, cc, rfl⟩ : ∃ (r : Fin 1024) (cc : Fin 2048), y = ix2 r cc := ⟨y 0, y 1, eq_ix2 y⟩
  refine (Payload.acc_apply (k0_pay1 (F := Ideal)) (iblk m c 0 t) (iblk m c 1 t) r cc).trans ?_
  rw [Payload.zero_apply, stretch m c t r cc]
  show 0 + ∑ q : Fin 512, products m c t.val r.val cc.val (512 * (t.val % 4) + q.val)
    = pre (products m c t.val r.val cc.val) (512 * (t.val % 4 + 1))
  rw [h0]
  simp only [Nat.mul_zero, Nat.zero_add, Nat.mul_one]
  exact Cert.MatSum.pre_first _ 512

/-- A LATER STEP (`t % 4 ≠ 0`) adds the next stretch to the running value of the point before. -/
theorem next_step (c : Dev nD) (t : Fin cfg0.N) (h0 : ¬t.val % 4 = 0) :
    k0_pay2 (F := Ideal) (running m c (t.val - 1)) (iblk m c 0 t) (iblk m c 1 t) = running m c t.val := by
  funext y
  obtain ⟨r, cc, rfl⟩ : ∃ (r : Fin 1024) (cc : Fin 2048), y = ix2 r cc := ⟨y 0, y 1, eq_ix2 y⟩
  refine (Payload.acc_apply (running m c (t.val - 1)) (iblk m c 0 t) (iblk m c 1 t) r cc).trans ?_
  rw [stretch m c t r cc]
  show pre (products m c (t.val - 1) r.val cc.val) (512 * ((t.val - 1) % 4 + 1))
      + ∑ q : Fin 512, products m c t.val r.val cc.val (512 * (t.val % 4) + q.val)
    = pre (products m c t.val r.val cc.val) (512 * (t.val % 4 + 1))
  have e1 : (t.val - 1) / 4 = t.val / 4 := by omega
  have e2 : 512 * ((t.val - 1) % 4 + 1) = 512 * (t.val % 4) := by omega
  have e3 : 512 * (t.val % 4 + 1) = 512 * (t.val % 4) + 512 := by omega
  rw [e2, e3]
  unfold products
  rw [e1]
  exact Cert.MatSum.pre_next _ _ 512

/-- What the accumulator holds after point `n` is the running value — by induction along the points. -/
theorem scratch_eq (c : Dev nD) : ∀ (n : ℕ) (h : n < cfg0.N), (outsAt0 m c n h).2 = running m c n
  | 0, h => by
    have h0 : (⟨0, h⟩ : Fin cfg0.N).val % 4 = 0 := rfl
    have h1 : ¬(⟨0, h⟩ : Fin cfg0.N).val % 4 = 3 := by dsimp only; omega
    rw [outsAt0_A m c ⟨0, h⟩ h0 h1]
    dsimp only
    exact (Pieces.first_acc c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) _ _ (iblk m c 0 ⟨0, h⟩) (iblk m c 1 ⟨0, h⟩)).trans
      (first_step m c ⟨0, h⟩ h0)
  | n + 1, h => by
    have hN : n + 1 < 32 := lt_of_lt_of_eq h N_0
    have ih := scratch_eq c n (Nat.lt_of_succ_lt h)
    by_cases h0 : (⟨n + 1, h⟩ : Fin cfg0.N).val % 4 = 0
    · have h1 : ¬(⟨n + 1, h⟩ : Fin cfg0.N).val % 4 = 3 := by dsimp only at h0 ⊢; omega
      rw [outsAt0_A m c ⟨n + 1, h⟩ h0 h1]
      dsimp only
      exact (Pieces.first_acc c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩)).trans
        (first_step m c ⟨n + 1, h⟩ h0)
    · by_cases h1 : (⟨n + 1, h⟩ : Fin cfg0.N).val % 4 = 3
      · rw [outsAt0_C m c ⟨n + 1, h⟩ h0 h1]
        dsimp only
        refine (Pieces.last_acc c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩) _).trans ?_
        show k0_pay2 (outsAt0 m c n _).2 _ _ = _
        rw [ih]
        exact next_step m c ⟨n + 1, h⟩ h0
      · rw [outsAt0_B m c ⟨n + 1, h⟩ h0 h1]
        dsimp only
        refine (Pieces.middle_acc c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩) _).trans ?_
        show k0_pay2 (outsAt0 m c n _).2 _ _ = _
        rw [ih]
        exact next_step m c ⟨n + 1, h⟩ h0

end Cert.KernelIdeal.Accum

end
-- ==== Proof.Result.lean ====
/-
  The kernel's result array is the product.

  The output window is written back only at the last step of each row block (`t % 4 = 3`).  What is written back there
  is the accumulator after that point: at `(r, c)` the prefix sum over all `512·4 = 2048` products of row
  `1024·(t/4) + r` of `x` with column `c` of `w` — the product's entry at the position where the block sits in the
  result.  The eight written blocks are the eight stretches of 1024 rows, so every entry of the result is written:
  row `R` by the point `4·(R / 1024) + 3`.
-/
import proofs.«138374_j46995532152908_1_alg».proof.Proof.Gen.KernelIdeal.Value
import proofs.«138374_j46995532152908_1_alg».proof.Proof.Accum

noncomputable section

namespace Cert.KernelIdeal.Result

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The product of the two arguments on core `c`, as contents of the result array. -/
abbrev product (c : Dev nD) : Buf (Elt Ideal) ((c : Thread nD τ).loc main_v2) :=
  Cert.MatSum.prod (m ((c : Thread nD τ).loc main_arg0)) (m ((c : Thread nD τ).loc main_arg1))

/-- What a writing point writes back is its block of the product. -/
theorem flushed_eq (c : Dev nD) (t : Fin cfg0.N) (hf : (cfg0.win 2).flush t = true) :
    (dats m 0 c).flushed 2 t = ((cfg0.win 2).blk t).view.read (Elt Ideal) (product m c) := by
  have h1 : t.val % 4 = 3 := (flush0_2 t).mp hf
  have h0 : ¬t.val % 4 = 0 := by omega
  obtain ⟨-, -, -, -, e4, e5⟩ := Blocks.idx_facts t
  rw [Value.flushed2_C m c t h0 h1,
    Pieces.last_out c (grid0.coords t) (ms0_0 t) (hs0_0 t) (ms0_1 t) (hs0_1 t) (ms0_2 t) (hs0_2 t) scM0_0 (Memref.isWhole_whole _)
      _ _ (iblk m c 0 t) (iblk m c 1 t) _,
    Accum.scratch_eq m c (t.val - 1), Accum.next_step m c t h0]
  funext j
  show Accum.running m c t.val j = Cert.MatSum.prod _ _ (((cfg0.win 2).blk t).view.emb j)
  rw [Cert.MatSum.prod_eq_pre]
  have a0 : ((((cfg0.win 2).blk t).view.emb j) 0).val = 1024 * (t.val / 4) + (j 0).val := by
    show win0_2.index t (0 : Fin 2) * 1024 + 1 * (j 0).val = _
    rw [e4]; omega
  have a1 : ((((cfg0.win 2).blk t).view.emb j) 1).val = (j 1).val := by
    show win0_2.index t (1 : Fin 2) * 2048 + 1 * (j 1).val = _
    rw [e5]; omega
  rw [a0, a1]
  unfold Accum.running
  rw [h1]

/-- Every entry of the result lies in the block of some writing point. -/
theorem cover (c : Dev nD) (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ : ∃ t : Fin cfg0.N, t.val = 4 * ((i 0).val / 1024) + 3 :=
    ⟨⟨4 * ((i 0).val / 1024) + 3, by rw [show cfg0.N = 32 from N_0]; omega⟩, rfl⟩
  obtain ⟨-, -, -, -, e4, e5⟩ := Blocks.idx_facts t
  refine ⟨t, (flush0_2 t).mpr (by omega), ?_⟩
  show i ∈ ((View.whole main_v2).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 2048 ≤ (i 1).val ∧ (i 1).val < win0_2.index t (1 : Fin 2) * 2048 + 2048
    rw [e5]; omega

/-- So after the run the result array holds the product. -/
theorem final (c : Dev nD) : (dats m 0 c).arrAt 2 cfg0.N = product m c :=
  (dats m 0 c).arrAt_eq_of_cover 2 (product m c) (flushed_eq m c) (cover c)

/-- The kernel's run: every weakly fair execution ends with the result array at the product and the arguments as
    they were. -/
theorem run : θ_run defs (onTc (τ := τ) (main (F := Ideal))) ⟨m, fun _ => 0, ρ⟩ fun r => ∀ c : Dev nD,
      r.2.mem ((c : Thread nD τ).loc main_v2) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.lean ====
/-
  A ternary-weight matrix product, tiled and accumulated, against the plain product.

  The kernel computes `x · w` for `x : [8192, 2048]`, `w : [2048, 2048]` on a grid of 8 row blocks by 4 steps along the
  contraction axis: each step multiplies a `[1024, 512]` block of `x` by a `[512, 2048]` block of `w` and adds the product
  to an accumulator that is zeroed at the first step and copied to the result at the last.  The reference is one
  `dot_general`.  Over the extended reals a change of float format is the identity and every operation is exact, so
  both compute, at `(r, c)`, the sum over `k < 2048` of `x[r, k] · w[k, c]`; the kernel takes it as zero plus four
  stretches of 512, which is the same sum because a prefix sum extended by the next stretch is the longer prefix sum.
  Only the commutative-monoid laws of addition are used; the precondition is never opened.

  The modules: `MatSum` (the product as one function, prefix sums), `RefProduct` (the reference is the product),
  `Payload` (the body's two stored values at an index), `Pieces` (what one run of the body leaves, per case),
  `Blocks` (where the windows' blocks sit in the arguments), `Accum` (the accumulator after every point, by induction),
  `Result` (the result array is the product).  The idealization rewrote nothing, so that conjunct is trivial; the three
  frame conjuncts are the generated frame runs, the reference's being its generated run with the result dropped.
-/
import proofs.«138374_j46995532152908_1_alg».proof.Defs
import proofs.«138374_j46995532152908_1_alg».proof.Proof.Gen.Kernel
import proofs.«138374_j46995532152908_1_alg».proof.Proof.Gen.Kernel.Skeleton
import proofs.«138374_j46995532152908_1_alg».proof.Proof.Gen.Kernel.Launch
import proofs.«138374_j46995532152908_1_alg».proof.Proof.Gen.Kernel.Points
import proofs.«138374_j46995532152908_1_alg».proof.Proof.Gen.Kernel.Frame
import proofs.«138374_j46995532152908_1_alg».proof.Proof.Gen.KernelIdeal
import proofs.«138374_j46995532152908_1_alg».proof.Proof.Gen.KernelIdeal.Skeleton
import proofs.«138374_j46995532152908_1_alg».proof.Proof.Gen.KernelIdeal.Launch
import proofs.«138374_j46995532152908_1_alg».proof.Proof.Gen.KernelIdeal.Points
import proofs.«138374_j46995532152908_1_alg».proof.Proof.Gen.KernelIdeal.Frame
import proofs.«138374_j46995532152908_1_alg».proof.Proof.Gen.ReferenceIdeal
import proofs.«138374_j46995532152908_1_alg».proof.Proof.Gen.ReferenceIdeal.Run
import proofs.«138374_j46995532152908_1_alg».proof.Proof.Gen.Pre_finite_inputs
import proofs.«138374_j46995532152908_1_alg».proof.Proof.RefProduct
import proofs.«138374_j46995532152908_1_alg».proof.Proof.Result
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x` and `w`, the kernel's result array ends at the product of its arguments and the
    reference's at the product of its own, which are the same arrays. -/
theorem algebraic : Cert.algebraic_KernelIdeal_ReferenceIdeal := by
  intro m ρ m' ρ' _ hagree
  refine ⟨fun c => Cert.KernelIdeal.Result.product m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.dot_eq_prod _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
